-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x512 : Shape := ⟨3, ![4096, 16, 512]⟩
abbrev S1536x512 : Shape := ⟨2, ![1536, 512]⟩
abbrev S512x512 : Shape := ⟨2, ![512, 512]⟩
abbrev S_ : Shape := ⟨0, ![]⟩

class Facts : Prop where
  bcast_S_S4096x16x512 : S_.BroadcastsInDim S4096x16x512 (![] : Fin 0 → Fin S4096x16x512.rank)
  reducesTo_S4096x16x512_S_d0_1_2 : S4096x16x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x16x512 .f32) (main_arg1 : FVec F S1536x512 .f32) (main_arg2 : FVec F S512x512 .f32) : IVec S_ 1 :=
  let main_v0 : FVec F S4096x16x512 .f32 := Host.absf main_arg0
  let main_cst : FVec F S_ .f32 := constant S_ .f32 0x7F800000#32
  let main_v1 : FVec F S4096x16x512 .f32 := broadcastInDim S4096x16x512 ![] bcast_S_S4096x16x512 main_cst
  let main_v2 : IVec S4096x16x512 1 := cmpf .olt main_v0 main_v1
  let main_c : IVec S_ 1 := constantI S_ 1 1#1
  let main_v3 : IVec S_ 1 := (fun x v => Host.reduce IntOp.andi x v reducesTo_S4096x16x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4096x16x512 : Shape := ⟨3, ![4096, 16, 512]⟩
abbrev S1536x512 : Shape := ⟨2, ![1536, 512]⟩
abbrev S512x512 : Shape := ⟨2, ![512, 512]⟩
abbrev S512x1536 : Shape := ⟨2, ![512, 1536]⟩
abbrev S128x16x512 : Shape := ⟨3, ![128, 16, 512]⟩
abbrev S2048x512 : Shape := ⟨2, ![2048, 512]⟩
abbrev S128x16x8x64 : Shape := ⟨4, ![128, 16, 8, 64]⟩
abbrev S128x8x16x64 : Shape := ⟨4, ![128, 8, 16, 64]⟩
abbrev S1024x16x64 : Shape := ⟨3, ![1024, 16, 64]⟩
abbrev S1024x16x16 : Shape := ⟨3, ![1024, 16, 16]⟩
abbrev S1024x16 : Shape := ⟨2, ![1024, 16]⟩
abbrev S1024x16x1 : Shape := ⟨3, ![1024, 16, 1]⟩

abbrev nBuf : Space → Nat
  | .hbm => 8
  | .vmem => 6
  | .smem => 0
  | _ => 0

abbrev bufTy : (tb : Table) → Fin (tcTables nBuf tb) → BufTy
  | .hbm, ⟨0, _⟩ => ⟨S4096x16x512, .f32⟩
  | .hbm, ⟨1, _⟩ => ⟨S1536x512, .f32⟩
  | .hbm, ⟨2, _⟩ => ⟨S512x512, .f32⟩
  | .hbm, ⟨3, _⟩ => ⟨S512x1536, .f32⟩
  | .hbm, ⟨4, _⟩ => ⟨S512x1536, .bf16⟩
  | .hbm, ⟨5, _⟩ => ⟨S512x512, .f32⟩
  | .hbm, ⟨6, _⟩ => ⟨S512x512, .bf16⟩
  | .hbm, ⟨7, _⟩ => ⟨S4096x16x512, .f32⟩
  | .local _ .vmem, ⟨0, _⟩ => ⟨S128x16x512, .f32⟩
  | .local _ .vmem, ⟨1, _⟩ => ⟨S128x16x512, .f32⟩
  | .local _ .vmem, ⟨2, _⟩ => ⟨S512x1536, .bf16⟩
  | .local _ .vmem, ⟨3, _⟩ => ⟨S512x512, .bf16⟩
  | .local _ .vmem, ⟨4, _⟩ => ⟨S128x16x512, .f32⟩
  | .local _ .vmem, ⟨5, _⟩ => ⟨S128x16x512, .f32⟩
  | _, _ => ⟨S4096x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1536x512_S512x1536_1_0 : S1536x512.Transposes [1, 0] S512x1536
  bitsLt_bf16_f32 : FTy.bits .bf16 < FTy.bits .f32
  transposes_S512x512_S512x512_1_0 : S512x512.Transposes [1, 0] S512x512
  inb_S128x16x512_S128x16x512_0_0_0 : ∀ a, (![0, 0, 0] : Fin 3 → Nat) a + S128x16x512.size a ≤ S128x16x512.size a
  h_S128x16x512 : 0 < S128x16x512.numel
  shapeCasts_S128x16x512_S2048x512 : S128x16x512.ShapeCasts S2048x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  shapeCasts_S2048x512_S128x16x8x64 : S2048x512.ShapeCasts S128x16x8x64
  transposes_S128x16x8x64_p0_2_1_3_S128x8x16x64 : S128x16x8x64.Transposes [0, 2, 1, 3] S128x8x16x64
  shapeCasts_S128x8x16x64_S1024x16x64 : S128x8x16x64.ShapeCasts S1024x16x64
  reduces_S1024x16x16_S1024x16 : S1024x16x16.Reduces [2] S1024x16
  shapeCasts_S1024x16_S1024x16x1 : S1024x16.ShapeCasts S1024x16x1
  broadcasts_S1024x16x1_S1024x16x16 : S1024x16x1.Broadcasts S1024x16x16
  shapeCasts_S1024x16x64_S128x8x16x64 : S1024x16x64.ShapeCasts S128x8x16x64
  transposes_S128x8x16x64_p0_2_1_3_S128x16x8x64 : S128x8x16x64.Transposes [0, 2, 1, 3] S128x16x8x64
  shapeCasts_S128x16x8x64_S2048x512 : S128x16x8x64.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S128x16x512 : S2048x512.ShapeCasts S128x16x512
  dot_S2048x512_S512x512_S2048x512_1_0_0_1_n_n_wf : DotDims.WF S2048x512 S512x512 S2048x512 [1] [0] [0] [1] [] []
  dot_S1024x16x64_S1024x16x64_S1024x16x16_2_2_1_1_0_0_wf : DotDims.WF S1024x16x64 S1024x16x64 S1024x16x16 [2] [2] [1] [1] [0] [0]
  dot_S1024x16x16_S1024x16x64_S1024x16x64_2_1_1_2_0_0_wf : DotDims.WF S1024x16x16 S1024x16x64 S1024x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S4096x16x512.size a
  hwx0_0 : ∀ i : grid0.Coords, EltTy.bits .f32 = 32 ∨ (Rect.block (s := S4096x16x512) S128x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x512.size a ≤ S4096x16x512.size a
  hwx0_3 : ∀ i : grid0.Coords, EltTy.bits .f32 = 32 ∨ (Rect.block (s := S4096x16x512) S128x16x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x16x64_S1024x16x64_S1024x16x16_2_2_1_1_0_0 : DotDims S1024x16x64 S1024x16x64 S1024x16x16 where
  lhsContracting := [2]
  rhsContracting := [2]
  lhsNonContracting := [1]
  rhsNonContracting := [1]
  lhsBatch := [0]
  rhsBatch := [0]
  wf := dot_S1024x16x64_S1024x16x64_S1024x16x16_2_2_1_1_0_0_wf
def dot_S1024x16x16_S1024x16x64_S1024x16x64_2_1_1_2_0_0 : DotDims S1024x16x16 S1024x16x64 S1024x16x64 where
  lhsContracting := [2]
  rhsContracting := [1]
  lhsNonContracting := [1]
  rhsNonContracting := [2]
  lhsBatch := [0]
  rhsBatch := [0]
  wf := dot_S1024x16x16_S1024x16x64_S1024x16x64_2_1_1_2_0_0_wf

abbrev win0_0 : Pipeline.Window sig grid0 :=
  Pipeline.Window.ofSpec (Memref.whole main_arg0) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16x512 : Shape := ⟨3, ![4096, 16, 512]⟩
abbrev S1536x512 : Shape := ⟨2, ![1536, 512]⟩
abbrev S512x512 : Shape := ⟨2, ![512, 512]⟩
abbrev S4096x16x1536 : Shape := ⟨3, ![4096, 16, 1536]⟩
abbrev S4096x16x3x8x64 : Shape := ⟨5, ![4096, 16, 3, 8, 64]⟩
abbrev S3x4096x8x16x64 : Shape := ⟨5, ![3, 4096, 8, 16, 64]⟩
abbrev S1x4096x8x16x64 : Shape := ⟨5, ![1, 4096, 8, 16, 64]⟩
abbrev S4096x8x16x64 : Shape := ⟨4, ![4096, 8, 16, 64]⟩
abbrev S4096x8x16x16 : Shape := ⟨4, ![4096, 8, 16, 16]⟩
abbrev S_ : Shape := ⟨0, ![]⟩
abbrev S4096x8x16 : Shape := ⟨3, ![4096, 8, 16]⟩
abbrev S4096x8x16x1 : Shape := ⟨4, ![4096, 8, 16, 1]⟩
abbrev S4096x16x8x64 : Shape := ⟨4, ![4096, 16, 8, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S1536x512, .f32⟩
  | .hbm, ⟨2, _⟩ => ⟨S512x512, .f32⟩
  | .hbm, ⟨3, _⟩ => ⟨S4096x16x1536, .f32⟩
  | .hbm, ⟨4, _⟩ => ⟨S4096x16x3x8x64, .f32⟩
  | .hbm, ⟨5, _⟩ => ⟨S3x4096x8x16x64, .f32⟩
  | .hbm, ⟨6, _⟩ => ⟨S1x4096x8x16x64, .f32⟩
  | .hbm, ⟨7, _⟩ => ⟨S4096x8x16x64, .f32⟩
  | .hbm, ⟨8, _⟩ => ⟨S1x4096x8x16x64, .f32⟩
  | .hbm, ⟨9, _⟩ => ⟨S4096x8x16x64, .f32⟩
  | .hbm, ⟨10, _⟩ => ⟨S1x4096x8x16x64, .f32⟩
  | .hbm, ⟨11, _⟩ => ⟨S4096x8x16x64, .f32⟩
  | .hbm, ⟨12, _⟩ => ⟨S4096x8x16x16, .f32⟩
  | .hbm, ⟨13, _⟩ => ⟨S_, .f32⟩
  | .hbm, ⟨14, _⟩ => ⟨S_, .f32⟩
  | .hbm, ⟨15, _⟩ => ⟨S4096x8x16x16, .f32⟩
  | .hbm, ⟨16, _⟩ => ⟨S4096x8x16x16, .f32⟩
  | .hbm, ⟨17, _⟩ => ⟨S_, .f32⟩
  | .hbm, ⟨18, _⟩ => ⟨S4096x8x16, .f32⟩
  | .hbm, ⟨19, _⟩ => ⟨S_, .f32⟩
  | .hbm, ⟨20, _⟩ => ⟨S4096x8x16, .f32⟩
  | .hbm, ⟨21, _⟩ => ⟨S4096x8x16, .f32⟩
  | .hbm, ⟨22, _⟩ => ⟨S4096x8x16x1, .f32⟩
  | .hbm, ⟨23, _⟩ => ⟨S4096x8x16x16, .f32⟩
  | .hbm, ⟨24, _⟩ => ⟨S4096x8x16x16, .f32⟩
  | .hbm, ⟨25, _⟩ => ⟨S4096x8x16x16, .f32⟩
  | .hbm, ⟨26, _⟩ => ⟨S_, .f32⟩
  | .hbm, ⟨27, _⟩ => ⟨S4096x8x16, .f32⟩
  | .hbm, ⟨28, _⟩ => ⟨S4096x8x16x1, .f32⟩
  | .hbm, ⟨29, _⟩ => ⟨S4096x8x16x16, .f32⟩
  | .hbm, ⟨30, _⟩ => ⟨S4096x8x16x16, .f32⟩
  | .hbm, ⟨31, _⟩ => ⟨S4096x8x16x64, .f32⟩
  | .hbm, ⟨32, _⟩ => ⟨S4096x16x8x64, .f32⟩
  | .hbm, ⟨33, _⟩ => ⟨S4096x16x512, .f32⟩
  | .hbm, ⟨34, _⟩ => ⟨S4096x16x512, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S4096x16x1536_S4096x16x3x8x64 : S4096x16x1536.ShapeCasts S4096x16x3x8x64
  transposes_S4096x16x3x8x64_S3x4096x8x16x64_2_0_3_1_4 : S4096x16x3x8x64.Transposes [2, 0, 3, 1, 4] S3x4096x8x16x64
  slices_S3x4096x8x16x64_S1x4096x8x16x64_0_0_0_0_0 : S3x4096x8x16x64.Slices ![0, 0, 0, 0, 0] S1x4096x8x16x64
  shapeCasts_S1x4096x8x16x64_S4096x8x16x64 : S1x4096x8x16x64.ShapeCasts S4096x8x16x64
  slices_S3x4096x8x16x64_S1x4096x8x16x64_1_0_0_0_0 : S3x4096x8x16x64.Slices ![1, 0, 0, 0, 0] S1x4096x8x16x64
  slices_S3x4096x8x16x64_S1x4096x8x16x64_2_0_0_0_0 : S3x4096x8x16x64.Slices ![2, 0, 0, 0, 0] S1x4096x8x16x64
  bcast_S_S4096x8x16x16 : S_.BroadcastsInDim S4096x8x16x16 (![] : Fin 0 → Fin S4096x8x16x16.rank)
  reducesTo_S4096x8x16x16_S4096x8x16_d3 : S4096x8x16x16.ReducesTo [3] S4096x8x16
  h_S_ : 0 < S_.numel
  bcast_S_S4096x8x16 : S_.BroadcastsInDim S4096x8x16 (![] : Fin 0 → Fin S4096x8x16.rank)
  bcast_S4096x8x16_S4096x8x16x1_0_1_2 : S4096x8x16.BroadcastsInDim S4096x8x16x1 (![0, 1, 2] : Fin 3 → Fin S4096x8x16x1.rank)
  bcast_S4096x8x16x1_S4096x8x16x16_0_1_2_3 : S4096x8x16x1.BroadcastsInDim S4096x8x16x16 (![0, 1, 2, 3] : Fin 4 → Fin S4096x8x16x16.rank)
  transposes_S4096x8x16x64_S4096x16x8x64_0_2_1_3 : S4096x8x16x64.Transposes [0, 2, 1, 3] S4096x16x8x64
  shapeCasts_S4096x16x8x64_S4096x16x512 : S4096x16x8x64.ShapeCasts S4096x16x512
  dot_S4096x16x512_S1536x512_S4096x16x1536_2_1_01_0_n_n_wf : DotDims.WF S4096x16x512 S1536x512 S4096x16x1536 [2] [1] [0, 1] [0] [] []
  dot_S4096x8x16x64_S4096x8x16x64_S4096x8x16x16_3_3_2_2_01_01_wf : DotDims.WF S4096x8x16x64 S4096x8x16x64 S4096x8x16x16 [3] [3] [2] [2] [0, 1] [0, 1]
  dot_S4096x8x16x16_S4096x8x16x64_S4096x8x16x64_3_2_2_3_01_01_wf : DotDims.WF S4096x8x16x16 S4096x8x16x64 S4096x8x16x64 [3] [2] [2] [3] [0, 1] [0, 1]
  dot_S4096x16x512_S512x512_S4096x16x512_2_1_01_0_n_n_wf : DotDims.WF S4096x16x512 S512x512 S4096x16x512 [2] [1] [0, 1] [0] [] []

variable [Facts₀]

def dot_S4096x16x512_S1536x512_S4096x16x1536_2_1_01_0_n_n : DotDims S4096x16x512 S1536x512 S4096x16x1536 where
  lhsContracting := [2]
  rhsContracting := [1]
  lhsNonContracting := [0, 1]
  rhsNonContracting := [0]
  lhsBatch := []
  rhsBatch := []
  wf := dot_S4096x16x512_S1536x512_S4096x16x1536_2_1_01_0_n_n_wf
def dot_S4096x8x16x64_S4096x8x16x64_S4096x8x16x16_3_3_2_2_01_01 : DotDims S4096x8x16x64 S4096x8x16x64 S4096x8x16x16 where
  lhsContracting := [3]
  rhsContracting := [3]
  lhsNonContracting := [2]
  rhsNonContracting := [2]
  lhsBatch := [0, 1]
  rhsBatch := [0, 1]
  wf := dot_S4096x8x16x64_S4096x8x16x64_S4096x8x16x16_3_3_2_2_01_01_wf
def dot_S4096x8x16x16_S4096x8x16x64_S4096x8x16x64_3_2_2_3_01_01 : DotDims S4096x8x16x16 S4096x8x16x64 S4096x8x16x64 where
  lhsContracting := [3]
  rhsContracting := [2]
  lhsNonContracting := [2]
  rhsNonContracting := [3]
  lhsBatch := [0, 1]
  rhsBatch := [0, 1]
  wf := dot_S4096x8x16x16_S4096x8x16x64_S4096x8x16x64_3_2_2_3_01_01_wf
def dot_S4096x16x512_S512x512_S4096x16x512_2_1_01_0_n_n : DotDims S4096x16x512 S512x512 S4096x16x512 where
  lhsContracting := [2]
  rhsContracting := [1]
  lhsNonContracting := [0, 1]
  rhsNonContracting := [0]
  lhsBatch := []
  rhsBatch := []
  wf := dot_S4096x16x512_S512x512_S4096x16x512_2_1_01_0_n_n_wf

class Facts : Prop extends Facts₀ where

variable [Facts]
-- ==== Proof.Consts.lean ====
/-
  The float words the two programs spell, as the extended reals they denote, and the one law that joins the two
  scalings of the attention scores: the kernel multiplies a score by the word of 0.125, the reference divides it by
  the square root of the word of 64.0; over the extended reals both are the product with 1/8, at the infinities too.
-/
import Idealize.ShloMosaic.PureOps.Ideal

noncomputable section

namespace Cert.Consts

open Idealize.ShloMosaic

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `64.0` denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 * 8 by norm_num]
  exact Real.sqrt_mul_self (by norm_num)

/-- Dividing by the square root of 64 is multiplying by 0.125, on every extended real. -/
theorem div_sqrt_64 (x : EReal) :
    Ideal.div x (Ideal.sqrt (Ideal.ofBits .f32 0x42800000#32)) = x * Ideal.ofBits .f32 0x3E000000#32 := by
  rw [sqrt_64, ofBits_eighth, Ideal.div_coe (by norm_num : (8 : ℝ) ≠ 0)]

end Cert.Consts

end
-- ==== Proof.Spec.lean ====
/-
  Multi-head self-attention of ONE batch element, as a function of plain coordinates over the extended reals.

  The element is a 16 × 512 slab X (sequence position × hidden feature). The fused projection weight W has 1536 rows:
  row c·512 + hd·64 + d is feature d of head hd of projection c (0 the queries, 1 the keys, 2 the values). Then

      proj c s hd d = Σ_h X[s, h] · W[c·512 + hd·64 + d, h]
      score hd q k  = scale (Σ_d proj 0 q hd d · proj 1 k hd d)
      rowMax hd q   = max(−∞, max over k of score hd q k)
      expo hd q k   = exp(score hd q k − rowMax hd q)
      prob hd q k   = expo hd q k / Σ_k' expo hd q k'
      ctx hd q d    = Σ_k prob hd q k · proj 2 k hd d
      out s o       = Σ_h ctx (h / 64) s (h mod 64) · Wo[o, h].

  The scaling of the scores is a parameter: the two programs spell it differently (a product, a quotient).
-/
import Idealize.ShloMosaic.PureOps.Ideal

noncomputable section

namespace Cert.Attention

open Idealize.ShloMosaic

/-- The value a running maximum starts from: the word of −∞. -/
abbrev negInf : EReal := Ideal.ofBits .f32 0xFF800000#32

/-- The row of the fused projection weight holding feature `d` of head `hd` of projection `c`. -/
def wrow (c : Fin 3) (hd : Fin 8) (d : Fin 64) : Fin 1536 :=
  ⟨c.val * 512 + hd.val * 64 + d.val, by have := c.isLt; have := hd.isLt; have := d.isLt; omega⟩

/-- The head a hidden feature belongs to. -/
def headOf (h : Fin 512) : Fin 8 := ⟨h.val / 64, by have := h.isLt; omega⟩
/-- Its position inside the head. -/
def featOf (h : Fin 512) : Fin 64 := ⟨h.val % 64, by omega⟩

variable (scale : EReal → EReal)
variable (X : Fin 16 → Fin 512 → EReal) (W : Fin 1536 → Fin 512 → EReal) (Wo : Fin 512 → Fin 512 → EReal)

/-- Feature `d` of head `hd` of projection `c` at sequence position `s`. -/
def proj (c : Fin 3) (s : Fin 16) (hd : Fin 8) (d : Fin 64) : EReal :=
  ∑ h : Fin 512, X s h * W (wrow c hd d) h

/-- The scaled score of query position `q` against key position `k` in head `hd`. -/
def score (hd : Fin 8) (q k : Fin 16) : EReal :=
  scale (∑ d : Fin 64, proj X W 0 q hd d * proj X W 1 k hd d)

/-- The largest score of a query row, never below −∞'s word. -/
def rowMax (hd : Fin 8) (q : Fin 16) : EReal :=
  max negInf ((Finset.univ : Finset (Fin 16)).fold max negInf (fun k => score scale X W hd q k))

/-- The exponential of a score shifted by its row's maximum. -/
def expo (hd : Fin 8) (q k : Fin 16) : EReal :=
  Ideal.exp (score scale X W hd q k - rowMax scale X W hd q)

/-- The attention weight: the shifted exponential over its row's sum. -/
def prob (hd : Fin 8) (q k : Fin 16) : EReal :=
  Ideal.div (expo scale X W hd q k) (∑ k' : Fin 16, expo scale X W hd q k')

/-- The attended value: feature `d` of head `hd` at query position `q`. -/
def ctx (hd : Fin 8) (q : Fin 16) (d : Fin 64) : EReal :=
  ∑ k : Fin 16, prob scale X W hd q k * proj X W 2 k hd d

/-- The output projection of the heads laid side by side. -/
def out (s : Fin 16) (o : Fin 512) : EReal :=
  ∑ h : Fin 512, ctx scale X W (headOf h) s (featOf h) * Wo o h

end Cert.Attention

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.Layout.lean ====
/-
  How one block of 128 batch elements is laid out inside the kernel body, read at an entry.

  The block [128, 16, 512] (batch element bb, sequence position s, hidden feature) is worked on as 2048 rows
  r = bb·16 + s of 512 features; a row's features split into 8 heads of 64, h = hd·64 + d; and the heads of one batch
  element are gathered into 1024 slabs n = bb·8 + hd of shape [16, 64]. Each lemma reads one chain of reshapes and
  transposes at an entry written by these coordinates; the arithmetic is the equality of row-major positions.
-/
import proofs.«131811_j42855183680160_2_alg».proof.KernelIdeal
import proofs.«131811_j42855183680160_2_alg».proof.Proof.Spec
import proofs.«131811_j42855183680160_2_alg».proof.Proof.LibSlabLayout
import Idealize.ShloMosaic.Lib.Pipeline.Value
import Idealize.ShloMosaic.Lib.ValueIdx

noncomputable section

namespace Cert.AttnBlock

open Idealize.ShloMosaic Idealize.ShloMosaic.ValueIdx Cert.KernelIdeal Cert.Attention

/-- Row bb·16 + s of the block viewed as 2048 rows. -/
def rowOf (bb : Fin 128) (s : Fin 16) : Fin 2048 := ⟨bb.val * 16 + s.val, by have := bb.isLt; have := s.isLt; omega⟩
/-- Slab bb·8 + hd: head hd of batch element bb. -/
def slabOf (bb : Fin 128) (hd : Fin 8) : Fin 1024 := ⟨bb.val * 8 + hd.val, by have := bb.isLt; have := hd.isLt; omega⟩
/-- Hidden feature hd·64 + d: feature d of head hd. -/
def colOf (hd : Fin 8) (d : Fin 64) : Fin 512 := ⟨hd.val * 64 + d.val, by have := hd.isLt; have := d.isLt; omega⟩

variable {α : Type}

/-- The block viewed as rows: row bb·16 + s is position s of batch element bb. -/
theorem rows_of_block (x : S128x16x512.Idx → α) (h : S128x16x512.ShapeCasts S2048x512) (bb : Fin 128) (s : Fin 16) (c : Fin 512) :
    shapeCast S2048x512 x h (ix2 (rowOf bb s) c) = x (ix3 bb s c) :=
  shapeCast_apply x h _ _ (by rw [Shape.rowMajor_val_three, Shape.rowMajor_val_two]; rfl)

/-- Rows viewed as the block again. -/
theorem block_of_rows (v : S2048x512.Idx → α) (h : S2048x512.ShapeCasts S128x16x512) (bb : Fin 128) (s : Fin 16) (o : Fin 512) :
    shapeCast S128x16x512 v h (ix3 bb s o) = v (ix2 (rowOf bb s) o) :=
  shapeCast_apply v h _ _ (by rw [Shape.rowMajor_val_two, Shape.rowMajor_val_three]; rfl)

/-- Rows split into heads and gathered by (batch element, head): slab bb·8 + hd at (s, d) is row bb·16 + s at feature
    hd·64 + d. -/
theorem split_heads (v : S2048x512.Idx → α) (h1 : S2048x512.ShapeCasts S128x16x8x64)
    (h2 : S128x16x8x64.Transposes [0, 2, 1, 3] S128x8x16x64) (h3 : S128x8x16x64.ShapeCasts S1024x16x64)
    (bb : Fin 128) (hd : Fin 8) (s : Fin 16) (d : Fin 64) :
    shapeCast S1024x16x64 (transpose S128x8x16x64 [0, 2, 1, 3] (shapeCast S128x16x8x64 v h1) h2) h3 (ix3 (slabOf bb hd) s d)
      = v (ix2 (rowOf bb s) (colOf hd d)) := by
  refine (shapeCast_apply _ h3 _ (ix4 bb hd s d) ?_).trans ?_
  · rw [Shape.rowMajor_val_four, Shape.rowMajor_val_three]; rfl
  refine (transpose_apply _ _ h2 _ (ix4 bb s hd d) ?_).trans ?_
  · intro b
    match b with
    | ⟨0, _⟩ => rfl
    | ⟨1, _⟩ => rfl
    | ⟨2, _⟩ => rfl
    | ⟨3, _⟩ => rfl
  exact shapeCast_apply v h1 _ _ (by
    rw [Shape.rowMajor_val_two, Shape.rowMajor_val_four]
    show (bb.val * 16 + s.val) * 512 + (hd.val * 64 + d.val) = ((bb.val * 16 + s.val) * 8 + hd.val) * 64 + d.val
    omega)

/-- The slabs laid back side by side as rows: row bb·16 + s at feature h is slab bb·8 + h/64 at (s, h mod 64). -/
theorem merge_heads (v : S1024x16x64.Idx → α) (h1 : S1024x16x64.ShapeCasts S128x8x16x64)
    (h2 : S128x8x16x64.Transposes [0, 2, 1, 3] S128x16x8x64) (h3 : S128x16x8x64.ShapeCasts S2048x512)
    (bb : Fin 128) (s : Fin 16) (h : Fin 512) :
    shapeCast S2048x512 (transpose S128x16x8x64 [0, 2, 1, 3] (shapeCast S128x8x16x64 v h1) h2) h3 (ix2 (rowOf bb s) h)
      = v (ix3 (slabOf bb (headOf h)) s (featOf h)) := by
  refine (shapeCast_apply _ h3 _ (ix4 bb s (headOf h) (featOf h)) ?_).trans ?_
  · rw [Shape.rowMajor_val_four, Shape.rowMajor_val_two]
    show ((bb.val * 16 + s.val) * 8 + h.val / 64) * 64 + h.val % 64 = (bb.val * 16 + s.val) * 512 + h.val
    omega
  refine (transpose_apply _ _ h2 _ (ix4 bb (headOf h) s (featOf h)) ?_).trans ?_
  · intro b
    match b with
    | ⟨0, _⟩ => rfl
    | ⟨1, _⟩ => rfl
    | ⟨2, _⟩ => rfl
    | ⟨3, _⟩ => rfl
  exact shapeCast_apply v h1 _ _ (by rw [Shape.rowMajor_val_three, Shape.rowMajor_val_four]; rfl)

/-- A 512-column slice of the transposed fused weight starting at column `off`: column o of the slice is column
    off + o of the whole. -/
theorem slice_cols (off : Nat) (w : S512x1536.Idx → α) (h : S512x1536.Slices ![0, off] S512x512)
    (hh : Fin 512) (o : Fin 512) (k : Fin 1536) (hk : k.val = off + o.val) :
    extractStridedSlice S512x512 ![0, off] w h (ix2 hh o) = w (ix2 hh k) :=
  extractStridedSlice_apply _ w h _ _ (fun a => by
    match a with
    | ⟨0, _⟩ => show hh.val = 0 + hh.val; omega
    | ⟨1, _⟩ => show k.val = off + o.val; exact hk)

/-- A per-row quantity kept as a trailing unit axis and spread along the row: every entry of row (n, q) reads it. -/
theorem keepdims_apply (v : S1024x16.Idx → α) (h1 : S1024x16.ShapeCasts S1024x16x1) (h2 : S1024x16x1.Broadcasts S1024x16x16)
    (n : Fin 1024) (q k : Fin 16) :
    broadcastTo S1024x16x16 (shapeCast S1024x16x1 v h1) h2 (ix3 n q k) = v (ix2 n q) :=
  (Cert.SlabLayout.broadcastTo_ab1_abc_apply _ h2 n q k).trans (Cert.SlabLayout.shapeCast_ab_ab1_apply v h1 n q 0)

end Cert.AttnBlock

end
-- ==== Proof.BatchedDots.lean ====
/-
  The two batched products of the attention, read at an entry over the extended reals.

  Per slab n (one head of one batch element): the scores contract the last axis of both operands,
  S[n, q, k] = Σ_d Q[n, q, d] · K[n, k, d]; the attended values contract the weights' last axis with the values'
  middle one, C[n, q, d] = Σ_k P[n, q, k] · V[n, k, d]. Both accumulate into zeros.
-/
import proofs.«131811_j42855183680160_2_alg».proof.Proof.Gen.KernelIdeal
import Idealize.ShloMosaic.Lib.ValueIdx
import Idealize.ShloMosaic.PureOps.Ideal.Laws

noncomputable section

namespace Cert.AttnBlock

open Idealize.ShloMosaic Idealize.ShloMosaic.ValueIdx Cert.KernelIdeal Cert.KernelIdeal.Gen

/-! ## The operands' indices of the score product, axis by axis -/

theorem lhs_qk_0 (i : S1024x16x16.Idx) (q : dot_S1024x16x64_S1024x16x64_S1024x16x16_2_2_1_1_0_0.contr.Idx) :
    (dot_S1024x16x64_S1024x16x64_S1024x16x16_2_2_1_1_0_0.lhsIdx i q 0).val = (i 0).val := by
  unfold DotDims.lhsIdx
  rw [dif_pos (show (0 : Fin S1024x16x64.rank) ∈ dot_S1024x16x64_S1024x16x64_S1024x16x16_2_2_1_1_0_0.lhsBatch by decide)]
  rfl
theorem lhs_qk_1 (i : S1024x16x16.Idx) (q : dot_S1024x16x64_S1024x16x64_S1024x16x16_2_2_1_1_0_0.contr.Idx) :
    (dot_S1024x16x64_S1024x16x64_S1024x16x16_2_2_1_1_0_0.lhsIdx i q 1).val = (i 1).val := by
  unfold DotDims.lhsIdx
  rw [dif_neg (show ¬(1 : Fin S1024x16x64.rank) ∈ dot_S1024x16x64_S1024x16x64_S1024x16x16_2_2_1_1_0_0.lhsBatch by decide), dif_pos (show (1 : Fin S1024x16x64.rank) ∈ dot_S1024x16x64_S1024x16x64_S1024x16x16_2_2_1_1_0_0.lhsNonContracting by decide)]
  rfl
theorem lhs_qk_2 (i : S1024x16x16.Idx) (q : dot_S1024x16x64_S1024x16x64_S1024x16x16_2_2_1_1_0_0.contr.Idx) :
    (dot_S1024x16x64_S1024x16x64_S1024x16x16_2_2_1_1_0_0.lhsIdx i q 2).val = (q ⟨0, by decide⟩).val :=
  dot_S1024x16x64_S1024x16x64_S1024x16x16_2_2_1_1_0_0.lhsIdx_val_of_single rfl i q
theorem rhs_qk_0 (i : S1024x16x16.Idx) (q : dot_S1024x16x64_S1024x16x64_S1024x16x16_2_2_1_1_0_0.contr.Idx) :
    (dot_S1024x16x64_S1024x16x64_S1024x16x16_2_2_1_1_0_0.rhsIdx i q 0).val = (i 0).val := by
  unfold DotDims.rhsIdx
  rw [dif_pos (show (0 : Fin S1024x16x64.rank) ∈ dot_S1024x16x64_S1024x16x64_S1024x16x16_2_2_1_1_0_0.rhsBatch by decide)]
  rfl
theorem rhs_qk_1 (i : S1024x16x16.Idx) (q : dot_S1024x16x64_S1024x16x64_S1024x16x16_2_2_1_1_0_0.contr.Idx) :
    (dot_S1024x16x64_S1024x16x64_S1024x16x16_2_2_1_1_0_0.rhsIdx i q 1).val = (i 2).val := by
  unfold DotDims.rhsIdx
  rw [dif_neg (show ¬(1 : Fin S1024x16x64.rank) ∈ dot_S1024x16x64_S1024x16x64_S1024x16x16_2_2_1_1_0_0.rhsBatch by decide), dif_pos (show (1 : Fin S1024x16x64.rank) ∈ dot_S1024x16x64_S1024x16x64_S1024x16x16_2_2_1_1_0_0.rhsNonContracting by decide)]
  rfl
theorem rhs_qk_2 (i : S1024x16x16.Idx) (q : dot_S1024x16x64_S1024x16x64_S1024x16x16_2_2_1_1_0_0.contr.Idx) :
    (dot_S1024x16x64_S1024x16x64_S1024x16x16_2_2_1_1_0_0.rhsIdx i q 2).val = (q ⟨0, by decide⟩).val :=
  dot_S1024x16x64_S1024x16x64_S1024x16x16_2_2_1_1_0_0.rhsIdx_val_of_single rfl i q

/-- The scores: the inner product of query row q with key row k of the slab. -/
theorem scores_apply {φ₁ φ₂ : FTy} (Q : FVec Ideal S1024x16x64 φ₁) (K : FVec Ideal S1024x16x64 φ₂) (n : Fin 1024) (q k : Fin 16) :
    FloatOps.matmul dot_S1024x16x64_S1024x16x64_S1024x16x16_2_2_1_1_0_0 none Q K (constant (F := Ideal) S1024x16x16 .f32 0x00000000#32) (ix3 n q k)
      = ∑ d : Fin 64, Q (ix3 n q d) * K (ix3 n k d) := by
  rw [Ideal.matmul_constant_zero_apply, ← Equiv.sum_comp (contrEquiv1 dot_S1024x16x64_S1024x16x64_S1024x16x16_2_2_1_1_0_0 64 rfl rfl).symm]
  refine Finset.sum_congr rfl fun d _ => ?_
  have hd := contrEquiv1_symm_val dot_S1024x16x64_S1024x16x64_S1024x16x16_2_2_1_1_0_0 64 rfl rfl d
  have el : dot_S1024x16x64_S1024x16x64_S1024x16x16_2_2_1_1_0_0.lhsIdx (ix3 n q k) ((contrEquiv1 dot_S1024x16x64_S1024x16x64_S1024x16x16_2_2_1_1_0_0 64 rfl rfl).symm d) = ix3 n q d := funext fun a => Fin.ext (by
    match a with
    | ⟨0, _⟩ => exact lhs_qk_0 _ _
    | ⟨1, _⟩ => exact lhs_qk_1 _ _
    | ⟨2, _⟩ => exact (lhs_qk_2 _ _).trans hd)
  have er : dot_S1024x16x64_S1024x16x64_S1024x16x16_2_2_1_1_0_0.rhsIdx (ix3 n q k) ((contrEquiv1 dot_S1024x16x64_S1024x16x64_S1024x16x16_2_2_1_1_0_0 64 rfl rfl).symm d) = ix3 n k d := funext fun a => Fin.ext (by
    match a with
    | ⟨0, _⟩ => exact rhs_qk_0 _ _
    | ⟨1, _⟩ => exact rhs_qk_1 _ _
    | ⟨2, _⟩ => exact (rhs_qk_2 _ _).trans hd)
  rw [el, er]

/-! ## The operands' indices of the product of the weights with the values -/

theorem lhs_pv_0 (i : S1024x16x64.Idx) (q : dot_S1024x16x16_S1024x16x64_S1024x16x64_2_1_1_2_0_0.contr.Idx) :
    (dot_S1024x16x16_S1024x16x64_S1024x16x64_2_1_1_2_0_0.lhsIdx i q 0).val = (i 0).val := by
  unfold DotDims.lhsIdx
  rw [dif_pos (show (0 : Fin S1024x16x16.rank) ∈ dot_S1024x16x16_S1024x16x64_S1024x16x64_2_1_1_2_0_0.lhsBatch by decide)]
  rfl
theorem lhs_pv_1 (i : S1024x16x64.Idx) (q : dot_S1024x16x16_S1024x16x64_S1024x16x64_2_1_1_2_0_0.contr.Idx) :
    (dot_S1024x16x16_S1024x16x64_S1024x16x64_2_1_1_2_0_0.lhsIdx i q 1).val = (i 1).val := by
  unfold DotDims.lhsIdx
  rw [dif_neg (show ¬(1 : Fin S1024x16x16.rank) ∈ dot_S1024x16x16_S1024x16x64_S1024x16x64_2_1_1_2_0_0.lhsBatch by decide), dif_pos (show (1 : Fin S1024x16x16.rank) ∈ dot_S1024x16x16_S1024x16x64_S1024x16x64_2_1_1_2_0_0.lhsNonContracting by decide)]
  rfl
theorem lhs_pv_2 (i : S1024x16x64.Idx) (q : dot_S1024x16x16_S1024x16x64_S1024x16x64_2_1_1_2_0_0.contr.Idx) :
    (dot_S1024x16x16_S1024x16x64_S1024x16x64_2_1_1_2_0_0.lhsIdx i q 2).val = (q ⟨0, by decide⟩).val :=
  dot_S1024x16x16_S1024x16x64_S1024x16x64_2_1_1_2_0_0.lhsIdx_val_of_single rfl i q
theorem rhs_pv_0 (i : S1024x16x64.Idx) (q : dot_S1024x16x16_S1024x16x64_S1024x16x64_2_1_1_2_0_0.contr.Idx) :
    (dot_S1024x16x16_S1024x16x64_S1024x16x64_2_1_1_2_0_0.rhsIdx i q 0).val = (i 0).val := by
  unfold DotDims.rhsIdx
  rw [dif_pos (show (0 : Fin S1024x16x64.rank) ∈ dot_S1024x16x16_S1024x16x64_S1024x16x64_2_1_1_2_0_0.rhsBatch by decide)]
  rfl
theorem rhs_pv_1 (i : S1024x16x64.Idx) (q : dot_S1024x16x16_S1024x16x64_S1024x16x64_2_1_1_2_0_0.contr.Idx) :
    (dot_S1024x16x16_S1024x16x64_S1024x16x64_2_1_1_2_0_0.rhsIdx i q 1).val = (q ⟨0, by decide⟩).val :=
  dot_S1024x16x16_S1024x16x64_S1024x16x64_2_1_1_2_0_0.rhsIdx_val_of_single rfl i q
theorem rhs_pv_2 (i : S1024x16x64.Idx) (q : dot_S1024x16x16_S1024x16x64_S1024x16x64_2_1_1_2_0_0.contr.Idx) :
    (dot_S1024x16x16_S1024x16x64_S1024x16x64_2_1_1_2_0_0.rhsIdx i q 2).val = (i 2).val := by
  unfold DotDims.rhsIdx
  rw [dif_neg (show ¬(2 : Fin S1024x16x64.rank) ∈ dot_S1024x16x16_S1024x16x64_S1024x16x64_2_1_1_2_0_0.rhsBatch by decide), dif_pos (show (2 : Fin S1024x16x64.rank) ∈ dot_S1024x16x16_S1024x16x64_S1024x16x64_2_1_1_2_0_0.rhsNonContracting by decide)]
  rfl

/-- The attended values: row q of the weights against column d of the slab's values. -/
theorem context_apply {φ₁ φ₂ : FTy} (Pw : FVec Ideal S1024x16x16 φ₁) (V : FVec Ideal S1024x16x64 φ₂) (n : Fin 1024) (q : Fin 16) (d : Fin 64) :
    FloatOps.matmul dot_S1024x16x16_S1024x16x64_S1024x16x64_2_1_1_2_0_0 none Pw V (constant (F := Ideal) S1024x16x64 .f32 0x00000000#32) (ix3 n q d)
      = ∑ k : Fin 16, Pw (ix3 n q k) * V (ix3 n k d) := by
  rw [Ideal.matmul_constant_zero_apply, ← Equiv.sum_comp (contrEquiv1 dot_S1024x16x16_S1024x16x64_S1024x16x64_2_1_1_2_0_0 16 rfl rfl).symm]
  refine Finset.sum_congr rfl fun k _ => ?_
  have hk := contrEquiv1_symm_val dot_S1024x16x16_S1024x16x64_S1024x16x64_2_1_1_2_0_0 16 rfl rfl k
  have el : dot_S1024x16x16_S1024x16x64_S1024x16x64_2_1_1_2_0_0.lhsIdx (ix3 n q d) ((contrEquiv1 dot_S1024x16x16_S1024x16x64_S1024x16x64_2_1_1_2_0_0 16 rfl rfl).symm k) = ix3 n q k := funext fun a => Fin.ext (by
    match a with
    | ⟨0, _⟩ => exact lhs_pv_0 _ _
    | ⟨1, _⟩ => exact lhs_pv_1 _ _
    | ⟨2, _⟩ => exact (lhs_pv_2 _ _).trans hk)
  have er : dot_S1024x16x16_S1024x16x64_S1024x16x64_2_1_1_2_0_0.rhsIdx (ix3 n q d) ((contrEquiv1 dot_S1024x16x16_S1024x16x64_S1024x16x64_2_1_1_2_0_0 16 rfl rfl).symm k) = ix3 n k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

end Cert.AttnBlock

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.Stages.lean ====
/-
  The kernel body, stage by stage, read at an entry over the extended reals.

  For a block x of 128 batch elements and a 512 × 512 weight slice w: `headsOf x w` is the projection x · w cut into
  heads and gathered into slabs. On slabs: `scoresOf` is the scaled product of queries with keys, `rowMaxOf` a query
  row's largest score, `expOf` the exponential of a score shifted by it, `probOf` that exponential over its row's sum,
  and `ctxOf` the weights times the values, the heads laid back side by side as rows. The body's value is their
  composition. A change of float format is the identity on extended reals, so it never shows in an entry.
-/
import proofs.«131811_j42855183680160_2_alg».proof.Proof.Gen.KernelIdeal.Skeleton
import proofs.«131811_j42855183680160_2_alg».proof.Proof.Layout
import proofs.«131811_j42855183680160_2_alg».proof.Proof.BatchedDots
import proofs.«131811_j42855183680160_2_alg».proof.Proof.LibMatmulNN
import proofs.«131811_j42855183680160_2_alg».proof.Proof.LibLastAxis

noncomputable section

namespace Cert.AttnBlock

open Idealize.ShloMosaic Idealize.ShloMosaic.ValueIdx Cert.KernelIdeal Cert.Attention

open Facts₀

/-! ## The stages -/

/-- One 512-column slice of the transposed fused weight: the columns of projection `c` start at `off = c·512`. -/
def sliceOf (off : Nat) (h : S512x1536.Slices ![0, off] S512x512) (w1 : Vec Ideal S512x1536 .bf16) : FVec Ideal S512x512 .bf16 :=
  extractStridedSlice S512x512 ![0, off] (shapeCast S512x1536 w1 shapeCasts_S512x1536_S512x1536) h

/-- The projection of the block by a weight slice, cut into heads and gathered into slabs. -/
def headsOf (x0 : Vec Ideal S128x16x512 .f32) (w : FVec Ideal S512x512 .bf16) : FVec Ideal S1024x16x64 .bf16 :=
  shapeCast S1024x16x64
    (transpose S128x8x16x64 [0, 2, 1, 3]
      (shapeCast S128x16x8x64
        (truncf .bf16
          (matmul dot_S2048x512_S512x512_S2048x512_1_0_0_1_n_n none
            (shapeCast S2048x512 (truncf .bf16 x0 bitsLt_bf16_f32) shapeCasts_S128x16x512_S2048x512) w
            (constant S2048x512 .f32 0x00000000#32))
          bitsLt_bf16_f32)
        shapeCasts_S2048x512_S128x16x8x64)
      transposes_S128x16x8x64_p0_2_1_3_S128x8x16x64)
    shapeCasts_S128x8x16x64_S1024x16x64

/-- The scaled scores of every slab. -/
def scoresOf (Q K : FVec Ideal S1024x16x64 .bf16) : FVec Ideal S1024x16x16 .f32 :=
  mulf (matmul dot_S1024x16x64_S1024x16x64_S1024x16x16_2_2_1_1_0_0 none Q K (constant S1024x16x16 .f32 0x00000000#32))
    (broadcast S1024x16x16 (Scalar.ofBits .f32 0x3E000000#32))

/-- Each query row's largest score. -/
def rowMaxOf (S : FVec Ideal S1024x16x16 .f32) : FVec Ideal S1024x16 .f32 :=
  maximumf (broadcast S1024x16 (Scalar.ofBits .f32 0xFF800000#32))
    (multiReduction .maximumf [2] S1024x16 S 0xFF800000#32 reduces_S1024x16x16_S1024x16 (.inl rfl) rfl)

/-- A per-row quantity spread along its row. -/
def alongRow (v : FVec Ideal S1024x16 .f32) : FVec Ideal S1024x16x16 .f32 :=
  broadcastTo S1024x16x16 (shapeCast S1024x16x1 v shapeCasts_S1024x16_S1024x16x1) broadcasts_S1024x16x1_S1024x16x16

/-- The exponential of each score shifted by its row's maximum. -/
def expOf (S : FVec Ideal S1024x16x16 .f32) : FVec Ideal S1024x16x16 .f32 :=
  exp (subf S (alongRow (rowMaxOf S)))

/-- The attention weights: each shifted exponential over its row's sum. -/
def probOf (S : FVec Ideal S1024x16x16 .f32) : FVec Ideal S1024x16x16 .bf16 :=
  truncf .bf16
    (divf (expOf S)
      (alongRow (multiReduction .add [2] S1024x16 (expOf S) 0x00000000#32 reduces_S1024x16x16_S1024x16 (.inl rfl) rfl)))
    bitsLt_bf16_f32

/-- The weights times the values, the heads laid back side by side as rows. -/
def ctxOf (Pw : FVec Ideal S1024x16x16 .bf16) (V : FVec Ideal S1024x16x64 .bf16) : FVec Ideal S2048x512 .bf16 :=
  shapeCast S2048x512
    (transpose S128x16x8x64 [0, 2, 1, 3]
      (shapeCast S128x8x16x64
        (truncf .bf16 (matmul dot_S1024x16x16_S1024x16x64_S1024x16x64_2_1_1_2_0_0 none Pw V (constant S1024x16x64 .f32 0x00000000#32)) bitsLt_bf16_f32)
        shapeCasts_S1024x16x64_S128x8x16x64)
      transposes_S128x8x16x64_p0_2_1_3_S128x16x8x64)
    shapeCasts_S128x16x8x64_S2048x512

/-- The body's attended rows are the composition of the stages. -/
theorem pay2_eq (x0 : Vec Ideal S128x16x512 .f32) (w1 : Vec Ideal S512x1536 .bf16) :
    Gen.k0_pay2 (F := Ideal) x0 w1
      = ctxOf
          (probOf (scoresOf (headsOf x0 (sliceOf 0 slices_S512x1536_o0_0_S512x512 w1))
            (headsOf x0 (sliceOf 512 slices_S512x1536_o0_512_S512x512 w1))))
          (headsOf x0 (sliceOf 1024 slices_S512x1536_o0_1024_S512x512 w1)) := rfl

/-- The body's result is the output projection of the attended rows, viewed as the block. -/
theorem pay1_eq (v42 : FVec Ideal S2048x512 .bf16) (w3 : Vec Ideal S512x512 .bf16) :
    Gen.k0_pay1 (F := Ideal) v42 w3
      = shapeCast S128x16x512
          (matmul dot_S2048x512_S512x512_S2048x512_1_0_0_1_n_n none v42 (shapeCast S512x512 w3 shapeCasts_S512x512_S512x512 : FVec Ideal S512x512 .bf16)
            (constant S2048x512 .f32 0x00000000#32))
          shapeCasts_S2048x512_S128x16x512 := rfl

/-! ## Each stage at an entry -/

theorem sliceOf_apply (off : Nat) (h : S512x1536.Slices ![0, off] S512x512) (w1 : Vec Ideal S512x1536 .bf16)
    (hh : Fin 512) (o : Fin 512) (k : Fin 1536) (hk : k.val = off + o.val) :
    sliceOf off h w1 (ix2 hh o) = w1 (ix2 hh k) := by
  unfold sliceOf
  rw [shapeCast_self]
  exact slice_cols off w1 h hh o k hk

/-- Slab bb·8 + hd at (s, d): row s of batch element bb against column hd·64 + d of the weight slice. -/
theorem headsOf_apply (x0 : Vec Ideal S128x16x512 .f32) (w : FVec Ideal S512x512 .bf16)
    (bb : Fin 128) (hd : Fin 8) (s : Fin 16) (d : Fin 64) :
    headsOf x0 w (ix3 (slabOf bb hd) s d) = ∑ h : Fin 512, x0 (ix3 bb s h) * w (ix2 h (colOf hd d)) := by
  unfold headsOf
  refine (split_heads _ _ _ _ bb hd s d).trans ?_
  refine (Cert.MatmulNN.matmul_zero_apply dot_S2048x512_S512x512_S2048x512_1_0_0_1_n_n rfl none _ w (rowOf bb s) (colOf hd d)).trans ?_
  refine Finset.sum_congr rfl fun h _ => ?_
  exact congrArg (· * w (ix2 h (colOf hd d))) (rows_of_block _ shapeCasts_S128x16x512_S2048x512 bb s h)

theorem scoresOf_apply (Q K : FVec Ideal S1024x16x64 .bf16) (n : Fin 1024) (q k : Fin 16) :
    scoresOf Q K (ix3 n q k) = (∑ d : Fin 64, Q (ix3 n q d) * K (ix3 n k d)) * Ideal.ofBits .f32 0x3E000000#32 :=
  congrArg (· * Ideal.ofBits .f32 0x3E000000#32) (scores_apply Q K n q k)

theorem rowMaxOf_apply (S : FVec Ideal S1024x16x16 .f32) (n : Fin 1024) (q : Fin 16) :
    rowMaxOf S (ix2 n q) = max negInf ((Finset.univ : Finset (Fin 16)).fold max negInf (fun k => S (ix3 n q k))) :=
  congrArg (max negInf) (Cert.LastAxis.lastMax_apply S _ reduces_S1024x16x16_S1024x16 (.inl rfl) rfl n q)

theorem alongRow_apply (v : FVec Ideal S1024x16 .f32) (n : Fin 1024) (q k : Fin 16) :
    alongRow v (ix3 n q k) = v (ix2 n q) :=
  keepdims_apply v _ _ n q k

theorem expOf_apply (S : FVec Ideal S1024x16x16 .f32) (n : Fin 1024) (q k : Fin 16) :
    expOf S (ix3 n q k) = Ideal.exp (S (ix3 n q k) - rowMaxOf S (ix2 n q)) :=
  congrArg (fun z => Ideal.exp (S (ix3 n q k) - z)) (alongRow_apply (rowMaxOf S) n q k)

theorem probOf_apply (S : FVec Ideal S1024x16x16 .f32) (n : Fin 1024) (q k : Fin 16) :
    probOf S (ix3 n q k) = Ideal.div (expOf S (ix3 n q k)) (∑ k' : Fin 16, expOf S (ix3 n q k')) := by
  refine congrArg (Ideal.div (expOf S (ix3 n q k))) ?_
  refine (alongRow_apply _ n q k).trans ?_
  exact Cert.LastAxis.lastSum_apply (expOf S) _ reduces_S1024x16x16_S1024x16 (.inl rfl) rfl n q

/-- Row bb·16 + s at feature h: the weights of head h/64 at position s against that head's values at feature h mod 64. -/
theorem ctxOf_apply (Pw : FVec Ideal S1024x16x16 .bf16) (V : FVec Ideal S1024x16x64 .bf16)
    (bb : Fin 128) (s : Fin 16) (h : Fin 512) :
    ctxOf Pw V (ix2 (rowOf bb s) h)
      = ∑ k : Fin 16, Pw (ix3 (slabOf bb (headOf h)) s k) * V (ix3 (slabOf bb (headOf h)) k (featOf h)) := by
  unfold ctxOf
  refine (merge_heads _ _ _ _ bb s h).trans ?_
  exact context_apply Pw V _ s _

end Cert.AttnBlock

end
-- ==== Proof.Payload.lean ====
/-
  The kernel body's value at an entry is the attention of one batch element.

  With the block's batch element bb as the slab X[s, h] = x[bb, s, h], the transposed fused weight read by rows,
  W[r, h] = w1[h, r], and likewise Wo[o, h] = w3[h, o], every stage of the body is the matching quantity of the
  specification: the slabs of the three projections are `proj 0/1/2`, the scaled scores `score`, and so on down to
  the stored block, whose entry (bb, s, o) is `out s o`. The kernel scales a score by the word of 0.125.
-/
import proofs.«131811_j42855183680160_2_alg».proof.Proof.Stages

noncomputable section

namespace Cert.AttnBlock

open Idealize.ShloMosaic Idealize.ShloMosaic.ValueIdx Cert.KernelIdeal Cert.Attention
open Facts₀

/-- The kernel's scaling of a score: the product with the word of 0.125. -/
abbrev kscale : EReal → EReal := fun z => z * Ideal.ofBits .f32 0x3E000000#32

variable (x0 : Vec Ideal S128x16x512 .f32) (w1 : Vec Ideal S512x1536 .bf16) (w3 : Vec Ideal S512x512 .bf16) (bb : Fin 128)

/-- Batch element bb of the block. -/
abbrev slabX : Fin 16 → Fin 512 → EReal := fun s h => x0 (ix3 bb s h)
/-- The fused projection weight by rows (the kernel holds its transpose). -/
abbrev rowsW : Fin 1536 → Fin 512 → EReal := fun r h => w1 (ix2 h r)
/-- The output weight by rows (the kernel holds its transpose). -/
abbrev rowsWo : Fin 512 → Fin 512 → EReal := fun o h => w3 (ix2 h o)

/-- The slabs of projection `c`, whose weight columns start at `c·512`. -/
theorem heads_eq_proj (c : Fin 3) (off : Nat) (hoff : off = c.val * 512) (hs : S512x1536.Slices ![0, off] S512x512)
    (hd : Fin 8) (s : Fin 16) (d : Fin 64) :
    headsOf x0 (sliceOf off hs w1) (ix3 (slabOf bb hd) s d) = proj (slabX x0 bb) (rowsW w1) c s hd d := by
  refine (headsOf_apply x0 _ bb hd s d).trans ?_
  unfold proj
  refine Finset.sum_congr rfl fun h _ => ?_
  refine congrArg (x0 (ix3 bb s h) * ·) (sliceOf_apply off hs w1 h (colOf hd d) (wrow c hd d) ?_)
  subst hoff
  show c.val * 512 + hd.val * 64 + d.val = c.val * 512 + (hd.val * 64 + d.val)
  omega

/-- The queries, keys and values of the block, by slab. -/
def queries : FVec Ideal S1024x16x64 .bf16 := headsOf x0 (sliceOf 0 slices_S512x1536_o0_0_S512x512 w1)
def keys : FVec Ideal S1024x16x64 .bf16 := headsOf x0 (sliceOf 512 slices_S512x1536_o0_512_S512x512 w1)
def values : FVec Ideal S1024x16x64 .bf16 := headsOf x0 (sliceOf 1024 slices_S512x1536_o0_1024_S512x512 w1)
/-- The block's scaled scores. -/
def scores : FVec Ideal S1024x16x16 .f32 := scoresOf (queries x0 w1) (keys x0 w1)

theorem queries_apply (hd : Fin 8) (s : Fin 16) (d : Fin 64) :
    queries x0 w1 (ix3 (slabOf bb hd) s d) = proj (slabX x0 bb) (rowsW w1) 0 s hd d :=
  heads_eq_proj x0 w1 bb 0 0 rfl _ hd s d
theorem keys_apply (hd : Fin 8) (s : Fin 16) (d : Fin 64) :
    keys x0 w1 (ix3 (slabOf bb hd) s d) = proj (slabX x0 bb) (rowsW w1) 1 s hd d :=
  heads_eq_proj x0 w1 bb 1 512 rfl _ hd s d
theorem values_apply (hd : Fin 8) (s : Fin 16) (d : Fin 64) :
    values x0 w1 (ix3 (slabOf bb hd) s d) = proj (slabX x0 bb) (rowsW w1) 2 s hd d :=
  heads_eq_proj x0 w1 bb 2 1024 rfl _ hd s d

theorem scores_eq (hd : Fin 8) (q k : Fin 16) :
    scores x0 w1 (ix3 (slabOf bb hd) q k) = score kscale (slabX x0 bb) (rowsW w1) hd q k := by
  refine (scoresOf_apply _ _ (slabOf bb hd) q k).trans ?_
  show _ = (∑ d : Fin 64, proj (slabX x0 bb) (rowsW w1) 0 q hd d * proj (slabX x0 bb) (rowsW w1) 1 k hd d) * Ideal.ofBits .f32 0x3E000000#32
  refine congrArg (· * Ideal.ofBits .f32 0x3E000000#32) (Finset.sum_congr rfl fun d _ => ?_)
  rw [queries_apply, keys_apply]

theorem rowMax_eq (hd : Fin 8) (q : Fin 16) :
    rowMaxOf (scores x0 w1) (ix2 (slabOf bb hd) q) = rowMax kscale (slabX x0 bb) (rowsW w1) hd q := by
  refine (rowMaxOf_apply _ (slabOf bb hd) q).trans ?_
  unfold rowMax
  have e : (fun k => scores x0 w1 (ix3 (slabOf bb hd) q k)) = fun k => score kscale (slabX x0 bb) (rowsW w1) hd q k :=
    funext fun k => scores_eq x0 w1 bb hd q k
  rw [e]

theorem expo_eq (hd : Fin 8) (q k : Fin 16) :
    expOf (scores x0 w1) (ix3 (slabOf bb hd) q k) = expo kscale (slabX x0 bb) (rowsW w1) hd q k := by
  refine (expOf_apply _ (slabOf bb hd) q k).trans ?_
  unfold expo
  rw [scores_eq, rowMax_eq]

theorem prob_eq (hd : Fin 8) (q k : Fin 16) :
    probOf (scores x0 w1) (ix3 (slabOf bb hd) q k) = prob kscale (slabX x0 bb) (rowsW w1) hd q k := by
  refine (probOf_apply _ (slabOf bb hd) q k).trans ?_
  unfold prob
  rw [expo_eq]
  exact congrArg _ (Finset.sum_congr rfl fun k' _ => expo_eq x0 w1 bb hd q k')

theorem ctx_eq (s : Fin 16) (h : Fin 512) :
    ctxOf (probOf (scores x0 w1)) (values x0 w1) (ix2 (rowOf bb s) h)
      = ctx kscale (slabX x0 bb) (rowsW w1) (headOf h) s (featOf h) := by
  refine (ctxOf_apply _ _ bb s h).trans ?_
  unfold ctx
  refine Finset.sum_congr rfl fun k _ => ?_
  rw [prob_eq, values_apply]

/-- THE BODY'S VALUE: entry (bb, s, o) of what the body stores is the attention output of batch element bb at
    position s, feature o. -/
theorem payload_apply (s : Fin 16) (o : Fin 512) :
    Gen.k0_pay1 (F := Ideal) (Gen.k0_pay2 x0 w1) w3 (ix3 bb s o)
      = out kscale (slabX x0 bb) (rowsW w1) (rowsWo w3) s o := by
  rw [pay1_eq, pay2_eq]
  refine (block_of_rows _ _ bb s o).trans ?_
  refine (Cert.MatmulNN.matmul_zero_apply dot_S2048x512_S512x512_S2048x512_1_0_0_1_n_n rfl none _ _ (rowOf bb s) o).trans ?_
  unfold out
  refine Finset.sum_congr rfl fun h _ => ?_
  rw [shapeCast_self]
  exact congrArg (· * w3 (ix2 h o)) (ctx_eq x0 w1 bb s h)

end Cert.AttnBlock

end
-- ==== Proof.ArraySpec.lean ====
/-
  The whole result as one function of the three argument arrays: entry (b, s, o) is the attention output of batch
  element b — the slab X[s, h] = hidden[b, s, h] — at position s and feature o, the weights read by rows.
-/
import proofs.«131811_j42855183680160_2_alg».proof.Proof.Spec
import Idealize.ShloMosaic.Lib.ValueIdx

noncomputable section

namespace Cert.Attention

open Idealize.ShloMosaic Idealize.ShloMosaic.ValueIdx

/-- The attention of every batch element, as an array of shape [4096, 16, 512]. -/
def attnArray (scale : EReal → EReal) (hidden : (⟨3, ![4096, 16, 512]⟩ : Shape).Idx → EReal)
    (wqkv : (⟨2, ![1536, 512]⟩ : Shape).Idx → EReal) (wo : (⟨2, ![512, 512]⟩ : Shape).Idx → EReal) :
    (⟨3, ![4096, 16, 512]⟩ : Shape).Idx → EReal :=
  fun i => out scale (fun s h => hidden (ix3 (i 0 : Fin 4096) s h)) (fun r h => wqkv (ix2 r h)) (fun o h => wo (ix2 o h))
    (i 1 : Fin 16) (i 2 : Fin 512)

theorem attnArray_apply (scale : EReal → EReal) (hidden : (⟨3, ![4096, 16, 512]⟩ : Shape).Idx → EReal)
    (wqkv : (⟨2, ![1536, 512]⟩ : Shape).Idx → EReal) (wo : (⟨2, ![512, 512]⟩ : Shape).Idx → EReal)
    (b : Fin 4096) (s : Fin 16) (o : Fin 512) :
    attnArray scale hidden wqkv wo (ix3 b s o)
      = out scale (fun s h => hidden (ix3 b s h)) (fun r h => wqkv (ix2 r h)) (fun o h => wo (ix2 o h)) s o := rfl

end Cert.Attention

end
-- ==== Proof.KernelArray.lean ====
/-
  From blocks to the array: what the kernel's run leaves in its result array.

  The grid has 32 points; point t stages batch elements 128·t … 128·t + 127 of the hidden states and both whole
  weights — which the host transposed before the call, so the staged weight at (h, r) is the argument at (r, h) — and
  writes back the same batch elements of the result. Every batch element lies in exactly one point's block, so the
  result array is the attention of every batch element.
-/
import proofs.«131811_j42855183680160_2_alg».proof.Proof.Gen.KernelIdeal.Value
import proofs.«131811_j42855183680160_2_alg».proof.Proof.Payload
import proofs.«131811_j42855183680160_2_alg».proof.Proof.ArraySpec
import Idealize.ShloMosaic.Lib.Pipeline.Value
import Idealize.ShloMosaic.Lib.StableHlo.Run
import Idealize.ShloMosaic.Lib.Tactic

noncomputable section

namespace Cert.AttnKernel

open Idealize.ShloMosaic Idealize.ShloMosaic.TcCoe Idealize.SL.Sem Idealize.ShloMosaic.ValueIdx
open Idealize.ShloMosaic.Pipeline (Dat)
open Cert.KernelIdeal Cert.KernelIdeal.Gen Cert.Attention Cert.AttnBlock

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The three argument arrays as launched. -/
abbrev hidden (c : Dev nD) : S4096x16x512.Idx → EReal := m ((c : Thread nD τ).loc main_arg0)
abbrev wqkv (c : Dev nD) : S1536x512.Idx → EReal := m ((c : Thread nD τ).loc main_arg1)
abbrev wo (c : Dev nD) : S512x512.Idx → EReal := m ((c : Thread nD τ).loc main_arg2)

/-- The printed index maps over the grid: the hidden states and the result move one block of 128 batch elements per
    point; both weights stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 32 :=
  lt_of_lt_of_eq t.isLt (N_0 : cfg0.N = 32)

/-- Batch element bb of point t's block is batch element 128·t + bb of the array. -/
def batchOf (t : Fin cfg0.N) (bb : Fin 128) : Fin 4096 :=
  ⟨t.val * 128 + bb.val, by have := point_lt t; have := bb.isLt; omega⟩

/-! ## The weights as the region finds them: the host's transposes -/

theorem staged_wqkv (c : Dev nD) :
    (V m c main_v1 : S512x1536.Idx → EReal) = transpose S512x1536 [1, 0] (wqkv m c) Facts₀.transposes_S1536x512_S512x1536_1_0 := by
  dsimp only [V, hostOps0]
  after_results
  rfl

theorem staged_wo (c : Dev nD) :
    (V m c main_v3 : S512x512.Idx → EReal) = transpose S512x512 [1, 0] (wo m c) Facts₀.transposes_S512x512_S512x512_1_0 := by
  dsimp only [V, hostOps0]
  after_results
  rfl

/-! ## Each input block read off its array -/

theorem hidden_block (c : Dev nD) (t : Fin cfg0.N) (bb : Fin 128) (s : Fin 16) (h : Fin 512) :
    (iblk m c 0 t : Vec Ideal S128x16x512 .f32) (ix3 bb s h) = hidden m c (ix3 (batchOf t bb) s h) := by
  obtain ⟨e0, e1, e2, -⟩ := idx_facts t
  unfold iblk
  rw [View.read_apply]
  show V m c main_arg0 _ = _
  rw [V_main_arg0]
  refine congrArg (hidden m c) (funext fun a => Fin.ext ?_)
  match a with
  | ⟨0, _⟩ => show win0_0.index t (0 : Fin 3) * 128 + 1 * bb.val = t.val * 128 + bb.val; rw [e0]; omega
  | ⟨1, _⟩ => show win0_0.index t (1 : Fin 3) * 16 + 1 * s.val = s.val; rw [e1]; omega
  | ⟨2, _⟩ => show win0_0.index t (2 : Fin 3) * 512 + 1 * h.val = h.val; rw [e2]; omega

theorem wqkv_block (c : Dev nD) (t : Fin cfg0.N) (h : Fin 512) (r : Fin 1536) :
    (iblk m c 1 t : Vec Ideal S512x1536 .bf16) (ix2 h r) = wqkv m c (ix2 r h) := by
  obtain ⟨-, -, -, e0, e1, -⟩ := idx_facts t
  unfold iblk
  rw [View.read_apply]
  show V m c main_v1 _ = _
  have e : ((cfg0.win 1).blk t).view.emb (ix2 h r) = ix2 h r := funext fun a => Fin.ext (by
    match a with
    | ⟨0, _⟩ => show win0_1.index t (0 : Fin 2) * 512 + 1 * h.val = h.val; rw [e0]; omega
    | ⟨1, _⟩ => show win0_1.index t (1 : Fin 2) * 1536 + 1 * r.val = r.val; rw [e1]; omega)
  rw [e, staged_wqkv]
  exact transpose_apply _ _ _ _ (ix2 r h) (fun b => by
    match b with
    | ⟨0, _⟩ => rfl
    | ⟨1, _⟩ => rfl)

theorem wo_block (c : Dev nD) (t : Fin cfg0.N) (h : Fin 512) (o : Fin 512) :
    (iblk m c 2 t : Vec Ideal S512x512 .bf16) (ix2 h o) = wo m c (ix2 o h) := by
  obtain ⟨-, -, -, -, -, e0, e1, -⟩ := idx_facts t
  unfold iblk
  rw [View.read_apply]
  show V m c main_v3 _ = _
  have e : ((cfg0.win 2).blk t).view.emb (ix2 h o) = ix2 h o := funext fun a => Fin.ext (by
    match a with
    | ⟨0, _⟩ => show win0_2.index t (0 : Fin 2) * 512 + 1 * h.val = h.val; rw [e0]; omega
    | ⟨1, _⟩ => show win0_2.index t (1 : Fin 2) * 512 + 1 * o.val = o.val; rw [e1]; omega)
  rw [e, staged_wo]
  exact transpose_apply _ _ _ _ (ix2 o h) (fun b => by
    match b with
    | ⟨0, _⟩ => rfl
    | ⟨1, _⟩ => rfl)

/-- Entry (bb, s, o) of point t's result block sits at (128·t + bb, s, o) of the result array. -/
theorem result_emb (t : Fin cfg0.N) (bb : Fin 128) (s : Fin 16) (o : Fin 512) :
    ((cfg0.win 3).blk t).view.emb (ix3 bb s o) = ix3 (batchOf t bb) s o := by
  obtain ⟨-, -, -, -, -, -, -, e0, e1, e2⟩ := idx_facts t
  funext a
  apply Fin.ext
  match a with
  | ⟨0, _⟩ => show win0_3.index t (0 : Fin 3) * 128 + 1 * bb.val = t.val * 128 + bb.val; rw [e0]; omega
  | ⟨1, _⟩ => show win0_3.index t (1 : Fin 3) * 16 + 1 * s.val = s.val; rw [e1]; omega
  | ⟨2, _⟩ => show win0_3.index t (2 : Fin 3) * 512 + 1 * o.val = o.val; rw [e2]; omega

/-! ## What a point writes back -/

/-- The body's value at an entry of point t's block is the attention array at the entry's place in the array. -/
theorem point_eq (c : Dev nD) (t : Fin cfg0.N) (y : S128x16x512.Idx) :
    k0_pay1 (F := Ideal) (k0_pay2 (iblk m c 0 t) (iblk m c 1 t)) (iblk m c 2 t) y
      = attnArray kscale (hidden m c) (wqkv m c) (wo m c) (((cfg0.win 3).blk t).view.emb y) := by
  obtain ⟨bb, s, o, rfl⟩ : ∃ (bb : Fin 128) (s : Fin 16) (o : Fin 512), y = ix3 bb s o := ⟨y 0, y 1, y 2, eq_ix3 y⟩
  refine (payload_apply (iblk m c 0 t) (iblk m c 1 t) (iblk m c 2 t) bb s o).trans ?_
  rw [result_emb, attnArray_apply]
  have hX : slabX (iblk m c 0 t) bb = fun s h => hidden m c (ix3 (batchOf t bb) s h) :=
    funext fun s => funext fun h => hidden_block m c t bb s h
  have hW : rowsW (iblk m c 1 t) = fun r h => wqkv m c (ix2 r h) :=
    funext fun r => funext fun h => wqkv_block m c t h r
  have hWo : rowsWo (iblk m c 2 t) = fun o h => wo m c (ix2 o h) :=
    funext fun o => funext fun h => wo_block m c t h o
  rw [hX, hW, hWo]

theorem flushed_eq (c : Dev nD) (t : Fin cfg0.N) :
    (dats m 0 c).flushed 3 t
      = ((cfg0.win 3).blk t).view.read (Elt Ideal) (attnArray kscale (hidden m c) (wqkv m c) (wo m c)) := by
  rw [Cert.KernelIdeal.Value.flushed3]
  unfold out0_3
  rw [View.canon_unit_zero hz3]
  simp only [View.ld_unit_zero (S := S128x16x512) hz3, View.ld_unit_zero (S := S512x1536) hz2,
    View.ld_unit_zero (S := S512x512) hz2]
  funext j
  exact point_eq m c t j

/-! ## The cover and the run -/

theorem mem_block (t : Fin cfg0.N) (i : S4096x16x512.Idx) :
    i ∈ ((cfg0.win 3).blk t).view.set ↔ ∀ a : Fin 3, win0_3.index t a * S128x16x512.size a ≤ (i a).val
      ∧ (i a).val < win0_3.index t a * S128x16x512.size a + S128x16x512.size a := by
  show i ∈ ((View.whole main_v4).slice (win0_3.rect t)).set ↔ _
  rw [View.set_slice_whole, Rect.mem_set_unit]
  exact Iff.rfl

/-- Batch element b lies in the block of point b / 128. -/
theorem covered (i : S4096x16x512.Idx) :
    ∃ t : Fin cfg0.N, (cfg0.win 3).flush t = true ∧ i ∈ ((cfg0.win 3).blk t).view.set := by
  have h0 : (i 0).val < 4096 := (i 0).isLt
  have h1 : (i 1).val < 16 := (i 1).isLt
  have h2 : (i 2).val < 512 := (i 2).isLt
  let t : Fin cfg0.N := ⟨(i 0).val / 128, by rw [show cfg0.N = 32 from N_0]; omega⟩
  obtain ⟨-, -, -, -, -, -, -, e0, e1, e2⟩ := idx_facts t
  have ht : t.val = (i 0).val / 128 := rfl
  refine ⟨t, flush0_3 t, ?_⟩
  rw [mem_block]
  intro a
  match a with
  | ⟨0, _⟩ =>
    show win0_3.index t (0 : Fin 3) * 128 ≤ (i 0).val ∧ (i 0).val < win0_3.index t (0 : Fin 3) * 128 + 128
    rw [e0, ht]; omega
  | ⟨1, _⟩ =>
    show win0_3.index t (1 : Fin 3) * 16 ≤ (i 1).val ∧ (i 1).val < win0_3.index t (1 : Fin 3) * 16 + 16
    rw [e1]; omega
  | ⟨2, _⟩ =>
    show win0_3.index t (2 : Fin 3) * 512 ≤ (i 2).val ∧ (i 2).val < win0_3.index t (2 : Fin 3) * 512 + 512
    rw [e2]; omega

/-- The result array after the run is the attention of every batch element. -/
theorem final (c : Dev nD) :
    (dats m 0 c).arrAt 3 cfg0.N = attnArray kscale (hidden m c) (wqkv m c) (wo m c) :=
  (dats m 0 c).arrAt_eq_of_cover 3 _ (fun t _ => flushed_eq m c t) covered

/-- The kernel's run, read: the result array at the attention of the arguments, the arguments unchanged. -/
theorem run : θ_run defs (onTc (τ := τ) (main (F := Ideal))) ⟨m, fun _ => 0, ρ⟩ fun r => ∀ c : Dev nD,
      r.2.mem ((c : Thread nD τ).loc main_v4) = attnArray kscale (hidden m c) (wqkv m c) (wo m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.AttnKernel

end
-- ==== Proof.RefValue.lean ====
/-
  The reference, operation by operation, is the attention of every batch element.

  With batch element b as the slab X[s, h] = hidden[b, s, h] and the weights read by rows as they are given, each of
  the reference's intermediate arrays, read at an entry by the generated stage lemmas, is the matching quantity of the
  specification: the fused projection reshaped to [b, s, 3, head, d] and transposed is `proj c`; its three slices are
  the queries, keys and values; the quotient of their product by the square root of 64 is `score`; and so on to the
  output projection. The reshapes' entries are matched by the arithmetic of row-major positions.
-/
import proofs.«131811_j42855183680160_2_alg».proof.Proof.Gen.ReferenceIdeal.Read
import proofs.«131811_j42855183680160_2_alg».proof.Proof.ArraySpec
import Idealize.ShloMosaic.Lib.ValueIdx
import Idealize.ShloMosaic.PureOps.Reduce
import Idealize.ShloMosaic.PureOps.Ideal.Laws

noncomputable section

namespace Cert.AttnReference

open Idealize.ShloMosaic Idealize.ShloMosaic.ValueIdx Cert.ReferenceIdeal Cert.ReferenceIdeal.Read Cert.Attention

/-- The reference's scaling of a score: the quotient by the square root of the word of 64.0. -/
abbrev rscale : EReal → EReal := fun z => Ideal.div z (Ideal.sqrt (Ideal.ofBits .f32 0x42800000#32))

variable (x0 : S4096x16x512.Idx → EReal) (x1 : S1536x512.Idx → EReal) (x2 : S512x512.Idx → EReal) (b : Fin 4096)

/-- Batch element b. -/
abbrev slab : Fin 16 → Fin 512 → EReal := fun s h => x0 (ix3 b s h)
/-- The fused projection weight by rows. -/
abbrev rowsQKV : Fin 1536 → Fin 512 → EReal := fun r h => x1 (ix2 r h)
/-- The output weight by rows. -/
abbrev rowsO : Fin 512 → Fin 512 → EReal := fun o h => x2 (ix2 o h)

/-- The fused projection at (b, s, r): row s of the slab against row r of the weight. -/
theorem fused_apply (s : Fin 16) (r : Fin 1536) :
    val_main_v0 (F := Ideal) x0 x1 (ix3 b s r) = ∑ h : Fin 512, x0 (ix3 b s h) * x1 (ix2 r h) := by
  rw [val_main_v0_apply]
  refine Finset.sum_congr rfl fun h _ => ?_
  have el : lidx_main_v0 (ix3 b s r) h = ix3 b s h := funext fun a => Fin.ext (by
    match a with
    | ⟨0, _⟩ => rfl
    | ⟨1, _⟩ => rfl
    | ⟨2, _⟩ => rfl)
  have er : ridx_main_v0 (ix3 b s r) h = ix2 r h := funext fun a => Fin.ext (by
    match a with
    | ⟨0, _⟩ => rfl
    | ⟨1, _⟩ => rfl)
  rw [el, er]

/-- The fused projection cut into (projection, head, feature) and brought to [3, b, head, s, d]. -/
theorem proj_apply (c : Fin 3) (hd : Fin 8) (s : Fin 16) (d : Fin 64) :
    val_main_v2 (F := Ideal) x0 x1 (ix5 c b hd s d) = proj (slab x0 b) (rowsQKV x1) c s hd d := by
  rw [val_main_v2_apply, val_main_v1_apply]
  have e : idx_main_v1 (idx_main_v2 (ix5 c b hd s d)) = ix3 b s (wrow c hd d) := funext fun a => Fin.ext (by
    have := c.isLt; have := b.isLt; have := hd.isLt; have := s.isLt; have := d.isLt
    match a with
    | ⟨0, _⟩ => show ((((b.val * 16 + s.val) * 3 + c.val) * 8 + hd.val) * 64 + d.val) / 24576 = b.val; omega
    | ⟨1, _⟩ => show ((((b.val * 16 + s.val) * 3 + c.val) * 8 + hd.val) * 64 + d.val) / 1536 % 16 = s.val; omega
    | ⟨2, _⟩ => show ((((b.val * 16 + s.val) * 3 + c.val) * 8 + hd.val) * 64 + d.val) % 1536 = c.val * 512 + hd.val * 64 + d.val; omega)
  rw [e]
  exact fused_apply x0 x1 b s (wrow c hd d)

/-- The queries of batch element b by head: projection 0. -/
theorem queries_apply (hd : Fin 8) (s : Fin 16) (d : Fin 64) :
    val_main_v4 (F := Ideal) x0 x1 (ix4 b hd s d) = proj (slab x0 b) (rowsQKV x1) 0 s hd d := by
  rw [val_main_v4_apply, val_main_v3_apply]
  have e : idx_main_v3 (idx_main_v4 (ix4 b hd s d)) = ix5 (0 : Fin 3) b hd s d := funext fun a => Fin.ext (by
    have := b.isLt; have := hd.isLt; have := s.isLt; have := d.isLt
    match a with
    | ⟨0, _⟩ => show (0 : Nat) = 0; omega
    | ⟨1, _⟩ => show (((b.val * 8 + hd.val) * 16 + s.val) * 64 + d.val) / 8192 % 4096 = b.val; omega
    | ⟨2, _⟩ => show (((b.val * 8 + hd.val) * 16 + s.val) * 64 + d.val) / 1024 % 8 = hd.val; omega
    | ⟨3, _⟩ => show (((b.val * 8 + hd.val) * 16 + s.val) * 64 + d.val) / 64 % 16 = s.val; omega
    | ⟨4, _⟩ => show (((b.val * 8 + hd.val) * 16 + s.val) * 64 + d.val) % 64 = d.val; omega)
  rw [e]
  exact proj_apply x0 x1 b 0 hd s d

/-- The keys of batch element b by head: projection 1. -/
theorem keys_apply (hd : Fin 8) (s : Fin 16) (d : Fin 64) :
    val_main_v6 (F := Ideal) x0 x1 (ix4 b hd s d) = proj (slab x0 b) (rowsQKV x1) 1 s hd d := by
  rw [val_main_v6_apply, val_main_v5_apply]
  have e : idx_main_v5 (idx_main_v6 (ix4 b hd s d)) = ix5 (1 : Fin 3) b hd s d := funext fun a => Fin.ext (by
    have := b.isLt; have := hd.isLt; have := s.isLt; have := d.isLt
    match a with
    | ⟨0, _⟩ => show 1 + (0 : Nat) = 1; omega
    | ⟨1, _⟩ => show (((b.val * 8 + hd.val) * 16 + s.val) * 64 + d.val) / 8192 % 4096 = b.val; omega
    | ⟨2, _⟩ => show (((b.val * 8 + hd.val) * 16 + s.val) * 64 + d.val) / 1024 % 8 = hd.val; omega
    | ⟨3, _⟩ => show (((b.val * 8 + hd.val) * 16 + s.val) * 64 + d.val) / 64 % 16 = s.val; omega
    | ⟨4, _⟩ => show (((b.val * 8 + hd.val) * 16 + s.val) * 64 + d.val) % 64 = d.val; omega)
  rw [e]
  exact proj_apply x0 x1 b 1 hd s d

/-- The values of batch element b by head: projection 2. -/
theorem values_apply (hd : Fin 8) (s : Fin 16) (d : Fin 64) :
    val_main_v8 (F := Ideal) x0 x1 (ix4 b hd s d) = proj (slab x0 b) (rowsQKV x1) 2 s hd d := by
  rw [val_main_v8_apply, val_main_v7_apply]
  have e : idx_main_v7 (idx_main_v8 (ix4 b hd s d)) = ix5 (2 : Fin 3) b hd s d := funext fun a => Fin.ext (by
    have := b.isLt; have := hd.isLt; have := s.isLt; have := d.isLt
    match a with
    | ⟨0, _⟩ => show 2 + (0 : Nat) = 2; omega
    | ⟨1, _⟩ => show (((b.val * 8 + hd.val) * 16 + s.val) * 64 + d.val) / 8192 % 4096 = b.val; omega
    | ⟨2, _⟩ => show (((b.val * 8 + hd.val) * 16 + s.val) * 64 + d.val) / 1024 % 8 = hd.val; omega
    | ⟨3, _⟩ => show (((b.val * 8 + hd.val) * 16 + s.val) * 64 + d.val) / 64 % 16 = s.val; omega
    | ⟨4, _⟩ => show (((b.val * 8 + hd.val) * 16 + s.val) * 64 + d.val) % 64 = d.val; omega)
  rw [e]
  exact proj_apply x0 x1 b 2 hd s d

/-- The scaled scores. -/
theorem scores_apply (hd : Fin 8) (q k : Fin 16) :
    val_main_v12 (F := Ideal) x0 x1 (ix4 b hd q k) = score rscale (slab x0 b) (rowsQKV x1) hd q k := by
  rw [val_main_v12_apply, val_main_v9_apply, val_main_v11_apply, val_main_v10_apply, val_main_cst_apply]
  show Ideal.div (∑ d : Fin 64, _ * _) (Ideal.sqrt (Ideal.ofBits .f32 0x42800000#32)) = _
  refine congrArg (fun z => Ideal.div z (Ideal.sqrt (Ideal.ofBits .f32 0x42800000#32))) (Finset.sum_congr rfl fun d _ => ?_)
  have el : lidx_main_v9 (ix4 b hd q k) d = ix4 b hd q d := funext fun a => Fin.ext (by
    match a with
    | ⟨0, _⟩ => rfl
    | ⟨1, _⟩ => rfl
    | ⟨2, _⟩ => rfl
    | ⟨3, _⟩ => rfl)
  have er : ridx_main_v9 (ix4 b hd q k) d = ix4 b hd k d := funext fun a => Fin.ext (by
    match a with
    | ⟨0, _⟩ => rfl
    | ⟨1, _⟩ => rfl
    | ⟨2, _⟩ => rfl
    | ⟨3, _⟩ => rfl)
  rw [el, er, queries_apply, keys_apply]

/-- The source index of a reduction over the last of four axes: (b, hd, q) with k appended. -/
theorem lift_last4 (h : S4096x8x16x16.Reduces [(3 : Fin 4)] S4096x8x16) (hd : Fin 8) (q k : Fin 16) :
    h.lift (ix3 b hd q) k = ix4 b hd q k := by
  funext d
  apply Fin.ext
  show h.liftVal (ix3 b hd q) k.val d = (ix4 b hd q k d).val
  unfold Shape.Reduces.liftVal
  match d with
  | ⟨0, _⟩ => rfl
  | ⟨1, _⟩ => rfl
  | ⟨2, _⟩ => rfl
  | ⟨3, _⟩ => rfl

/-- A query row's largest score. -/
theorem rowMax_apply (hd : Fin 8) (q : Fin 16) :
    val_main_v15 (F := Ideal) x0 x1 (ix3 b hd q) = rowMax rscale (slab x0 b) (rowsQKV x1) hd q := by
  have hR : S4096x8x16x16.Reduces [(3 : Fin 4)] S4096x8x16 := by decide
  rw [val_main_v15_apply, val_main_v14_apply, val_main_cst_1_apply]
  unfold val_main_v13
  rw [Host.reduce_eq_fold_single FloatOps.maximumf _ _ Facts₀.reducesTo_S4096x8x16x16_S4096x8x16_d3 hR Facts₀.h_S_ (ix3 b hd q)]
  have e : (val_main_v12 (F := Ideal) x0 x1 ∘ hR.lift (ix3 b hd q))
      = fun k : Fin 16 => score rscale (slab x0 b) (rowsQKV x1) hd q k :=
    funext fun (k : Fin 16) => by
      show val_main_v12 (F := Ideal) x0 x1 (hR.lift (ix3 b hd q) k) = score rscale (slab x0 b) (rowsQKV x1) hd q k
      rw [lift_last4 b hR hd q k, scores_apply]
  rw [e]
  rfl

/-- The exponential of a score shifted by its row's maximum. -/
theorem expo_apply (hd : Fin 8) (q k : Fin 16) :
    val_main_v19 (F := Ideal) x0 x1 (ix4 b hd q k) = expo rscale (slab x0 b) (rowsQKV x1) hd q k := by
  rw [val_main_v19_apply, val_main_v18_apply, val_main_v17_apply, val_main_v16_apply]
  have e : idx_main_v16 (idx_main_v17 (ix4 b hd q k)) = ix3 b hd q := funext fun a => Fin.ext (by
    match a with
    | ⟨0, _⟩ => rfl
    | ⟨1, _⟩ => rfl
    | ⟨2, _⟩ => rfl)
  rw [e, scores_apply, rowMax_apply]
  rfl

/-- The attention weight. -/
theorem prob_apply (hd : Fin 8) (q k : Fin 16) :
    val_main_v23 (F := Ideal) x0 x1 (ix4 b hd q k) = prob rscale (slab x0 b) (rowsQKV x1) hd q k := by
  rw [val_main_v23_apply, val_main_v22_apply, val_main_v21_apply, val_main_v20_apply, val_main_cst_2_apply]
  have e : idx_main_v21 (idx_main_v22 (ix4 b hd q k)) = ix3 b hd q := funext fun a => Fin.ext (by
    match a with
    | ⟨0, _⟩ => rfl
    | ⟨1, _⟩ => rfl
    | ⟨2, _⟩ => rfl)
  have e' : ∀ k' : Fin 16, idx_main_v20 (ix3 b hd q) k' = ix4 b hd q k' := fun k' => funext fun a => Fin.ext (by
    match a with
    | ⟨0, _⟩ => rfl
    | ⟨1, _⟩ => rfl
    | ⟨2, _⟩ => rfl
    | ⟨3, _⟩ => rfl)
  rw [e, expo_apply]
  show Ideal.div _ (Ideal.ofBits .f32 0x00000000#32 + ∑ k' : Fin 16, _) = _
  rw [Ideal.ofBits_zero_f32, zero_add]
  unfold prob
  refine congrArg _ (Finset.sum_congr rfl fun k' _ => ?_)
  rw [e', expo_apply]

/-- The attended values. -/
theorem ctx_apply (hd : Fin 8) (q : Fin 16) (d : Fin 64) :
    val_main_v24 (F := Ideal) x0 x1 (ix4 b hd q d) = ctx rscale (slab x0 b) (rowsQKV x1) hd q d := by
  rw [val_main_v24_apply]
  unfold ctx
  refine Finset.sum_congr rfl fun k _ => ?_
  have el : lidx_main_v24 (ix4 b hd q d) k = ix4 b hd q k := funext fun a => Fin.ext (by
    match a with
    | ⟨0, _⟩ => rfl
    | ⟨1, _⟩ => rfl
    | ⟨2, _⟩ => rfl
    | ⟨3, _⟩ => rfl)
  have er : ridx_main_v24 (ix4 b hd q d) k = ix4 b hd k d := funext fun a => Fin.ext (by
    match a with
    | ⟨0, _⟩ => rfl
    | ⟨1, _⟩ => rfl
    | ⟨2, _⟩ => rfl
    | ⟨3, _⟩ => rfl)
  rw [el, er, prob_apply, values_apply]

/-- The result at (b, s, o). -/
theorem out_apply (s : Fin 16) (o : Fin 512) :
    val_main_v27 (F := Ideal) x0 x1 x2 (ix3 b s o) = out rscale (slab x0 b) (rowsQKV x1) (rowsO x2) s o := by
  rw [val_main_v27_apply]
  unfold out
  refine Finset.sum_congr rfl fun h _ => ?_
  have el : lidx_main_v27 (ix3 b s o) h = ix3 b s h := funext fun a => Fin.ext (by
    match a with
    | ⟨0, _⟩ => rfl
    | ⟨1, _⟩ => rfl
    | ⟨2, _⟩ => rfl)
  have er : ridx_main_v27 (ix3 b s o) h = ix2 o h := funext fun a => Fin.ext (by
    match a with
    | ⟨0, _⟩ => rfl
    | ⟨1, _⟩ => rfl)
  have e : idx_main_v25 (idx_main_v26 (ix3 b s h)) = ix4 b (headOf h) s (featOf h) := funext fun a => Fin.ext (by
    have := b.isLt; have := s.isLt; have := h.isLt
    match a with
    | ⟨0, _⟩ => show ((b.val * 16 + s.val) * 512 + h.val) / 8192 = b.val; omega
    | ⟨1, _⟩ => show ((b.val * 16 + s.val) * 512 + h.val) / 64 % 8 = h.val / 64; omega
    | ⟨2, _⟩ => show ((b.val * 16 + s.val) * 512 + h.val) / 512 % 16 = s.val; omega
    | ⟨3, _⟩ => show ((b.val * 16 + s.val) * 512 + h.val) % 64 = h.val % 64; omega)
  rw [el, er, val_main_v26_apply, val_main_v25_apply, e, ctx_apply]

/-- THE REFERENCE'S VALUE: the attention of every batch element, with the scores divided by the square root of 64. -/
theorem result_eq : val_main_v27 (F := Ideal) x0 x1 x2 = attnArray rscale x0 x1 x2 := by
  funext i
  obtain ⟨b, s, o, rfl⟩ : ∃ (b : Fin 4096) (s : Fin 16) (o : Fin 512), i = ix3 b s o := ⟨i 0, i 1, i 2, eq_ix3 i⟩
  exact out_apply x0 x1 x2 b s o

end Cert.AttnReference

end
-- ==== Proof.lean ====
/-
  Fused multi-head self-attention (4096 batch elements, 16 positions, 512 features, 8 heads of 64) against its plain
  reference, over the extended reals.

  Both programs compute, for every batch element b with slab X[s, h] = hidden[b, s, h],

      out[b, s, o] = Σ_h ctx(h / 64, s, h mod 64) · Wo[o, h],   ctx = softmax(scale(Q · Kᵀ)) · V per head,

  with Q, K, V the three 512-row groups of the fused projection X · Wqkvᵀ cut into heads. The kernel works on blocks of
  128 batch elements, holds the two weights transposed (the host transposes them before the call), gathers the heads of
  a block into 1024 slabs and scales a score by the product with 0.125; the reference keeps four-axis arrays and scales
  by the quotient by √64. A change of float format is the identity on extended reals, a matrix product into zeros is
  the plain sum, and x / √64 = x · 0.125 on EVERY extended real, so the two results are one function of the arguments:
  no finiteness of the inputs is used. The ideal pass rewrote nothing, so the kernel's idealization is its own text.
-/
import proofs.«131811_j42855183680160_2_alg».proof.Defs
import proofs.«131811_j42855183680160_2_alg».proof.Proof.Gen.Kernel
import proofs.«131811_j42855183680160_2_alg».proof.Proof.Gen.Kernel.Skeleton
import proofs.«131811_j42855183680160_2_alg».proof.Proof.Gen.Kernel.Launch
import proofs.«131811_j42855183680160_2_alg».proof.Proof.Gen.Kernel.Points
import proofs.«131811_j42855183680160_2_alg».proof.Proof.Gen.Kernel.Frame
import proofs.«131811_j42855183680160_2_alg».proof.Proof.Gen.KernelIdeal
import proofs.«131811_j42855183680160_2_alg».proof.Proof.Gen.KernelIdeal.Skeleton
import proofs.«131811_j42855183680160_2_alg».proof.Proof.Gen.KernelIdeal.Launch
import proofs.«131811_j42855183680160_2_alg».proof.Proof.Gen.KernelIdeal.Points
import proofs.«131811_j42855183680160_2_alg».proof.Proof.Gen.KernelIdeal.Frame
import proofs.«131811_j42855183680160_2_alg».proof.Proof.Gen.ReferenceIdeal
import proofs.«131811_j42855183680160_2_alg».proof.Proof.Gen.Pre_finite_inputs
import proofs.«131811_j42855183680160_2_alg».proof.Proof.Gen.KernelIdeal.Value
import proofs.«131811_j42855183680160_2_alg».proof.Proof.Gen.ReferenceIdeal.Run
import proofs.«131811_j42855183680160_2_alg».proof.Proof.Gen.ReferenceIdeal.Read
import proofs.«131811_j42855183680160_2_alg».proof.Proof.Consts
import proofs.«131811_j42855183680160_2_alg».proof.Proof.KernelArray
import proofs.«131811_j42855183680160_2_alg».proof.Proof.RefValue
import Idealize.ShloMosaic.Adequacy
import Idealize.ShloMosaic.Init

noncomputable section

namespace Cert.Proof

open Idealize.ShloMosaic Idealize.ShloMosaic.TcCoe Idealize.SL.Sem

/-- The two scalings of a score are one function: x · 0.125 = x / √64 on every extended real. -/
theorem scale_eq : Cert.AttnBlock.kscale = Cert.AttnReference.rscale :=
  funext fun z => (Cert.Consts.div_sqrt_64 z).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both results are the attention of every batch element: the kernel's with the scores multiplied by 0.125, the
    reference's with them divided by √64, which is one scaling. -/
theorem algebraic : Cert.algebraic_KernelIdeal_ReferenceIdeal := by
  intro m ρ m' ρ' _ hagree
  refine ⟨fun c => Cert.Attention.attnArray Cert.AttnBlock.kscale
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.AttnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.AttnReference.result_eq, (hagree c).1, (hagree c).2.1,
    (hagree c).2.2, scale_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
